-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x256 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x256 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S4000x128 : Shape := ⟨2, ![4000, 128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S256x128 : Shape := ⟨2, ![256, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 50
  | .vmem => 21
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S40000x128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S40000, .f32⟩
  | .hbm, ⟨36, _⟩ => ⟨S640000x1, .i32⟩
  | .hbm, ⟨37, _⟩ => ⟨S40000, .f32⟩
  | .hbm, ⟨38, _⟩ => ⟨S_, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S40000x1, .f32⟩
  | .hbm, ⟨43, _⟩ => ⟨S40000x128, .f32⟩
  | .hbm, ⟨44, _⟩ => ⟨S40000x128, .f32⟩
  | .hbm, ⟨45, _⟩ => ⟨S256x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S40000x128.size a
  hwx1_9 : ∀ i : grid1.Coords, EltTy.bits .f32 = 32 ∨ (Rect.block (s := S40000x128) S2000x128.size (cc1_transform_9 i) (hinb1_9 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x256 : Shape := ⟨2, ![128, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000 : Shape := ⟨1, ![40000]⟩
abbrev S40000x1 : Shape := ⟨2, ![40000, 1]⟩
abbrev S40000x256 : Shape := ⟨2, ![40000, 256]⟩
abbrev S256x128 : Shape := ⟨2, ![256, 128]⟩

abbrev nBuf : Space → Nat
  | .hbm => 99
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S128x128, .f32⟩
  | .hbm, ⟨26, _⟩ => ⟨S640000x128, .f32⟩
  | .hbm, ⟨27, _⟩ => ⟨S1x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S128x128, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S40000x128, .f32⟩
  | .hbm, ⟨40, _⟩ => ⟨S640000x1, .i32⟩
  | .hbm, ⟨41, _⟩ => ⟨S40000x128, .f32⟩
  | .hbm, ⟨42, _⟩ => ⟨S_, .f32⟩
  | .hbm, ⟨43, _⟩ => ⟨S640000, .f32⟩
  | .hbm, ⟨44, _⟩ => ⟨S_, .f32⟩
  | .hbm, ⟨45, _⟩ => ⟨S40000, .f32⟩
  | .hbm, ⟨46, _⟩ => ⟨S640000x1, .i32⟩
  | .hbm, ⟨47, _⟩ => ⟨S40000, .f32⟩
  | .hbm, ⟨48, _⟩ => ⟨S_, .f32⟩
  | .hbm, ⟨49, _⟩ => ⟨S_, .f32⟩
  | .hbm, ⟨50, _⟩ => ⟨S40000, .f32⟩
  | .hbm, ⟨51, _⟩ => ⟨S40000, .f32⟩
  | .hbm, ⟨52, _⟩ => ⟨S40000x1, .f32⟩
  | .hbm, ⟨53, _⟩ => ⟨S40000x128, .f32⟩
  | .hbm, ⟨54, _⟩ => ⟨S40000x128, .f32⟩
  | .hbm, ⟨55, _⟩ => ⟨S40000x256, .f32⟩
  | .hbm, ⟨56, _⟩ => ⟨S256x128, .f32⟩
  | .hbm, ⟨57, _⟩ => ⟨S40000x128, .f32⟩
  | .hbm, ⟨58, _⟩ => ⟨S1x128, .f32⟩
  | .hbm, ⟨59, _⟩ => ⟨S40000x128, .f32⟩
  | .hbm, ⟨60, _⟩ => ⟨S40000x128, .f32⟩
  | .hbm, ⟨61, _⟩ => ⟨S_, .f32⟩
  | .hbm, ⟨62, _⟩ => ⟨S40000x128, .f32⟩
  | .hbm, ⟨63, _⟩ => ⟨S40000x128, .f32⟩
  | .hbm, ⟨64, _⟩ => ⟨S128x128, .f32⟩
  | .hbm, ⟨65, _⟩ => ⟨S40000x128, .f32⟩
  | .hbm, ⟨66, _⟩ => ⟨S1x128, .f32⟩
  | .hbm, ⟨67, _⟩ => ⟨S40000x128, .f32⟩
  | .hbm, ⟨68, _⟩ => ⟨S40000x128, .f32⟩
  | .hbm, ⟨69, _⟩ => ⟨S40000x128, .f32⟩
  | .hbm, ⟨70, _⟩ => ⟨S_, .f32⟩
  | .hbm, ⟨71, _⟩ => ⟨S40000, .f32⟩
  | .hbm, ⟨72, _⟩ => ⟨S40000x1, .f32⟩
  | .hbm, ⟨73, _⟩ => ⟨S_, .f32⟩
  | .hbm, ⟨74, _⟩ => ⟨S40000x1, .f32⟩
  | .hbm, ⟨75, _⟩ => ⟨S40000x1, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000, .f32⟩
  | .hbm, ⟨81, _⟩ => ⟨S40000x1, .f32⟩
  | .hbm, ⟨82, _⟩ => ⟨S_, .f32⟩
  | .hbm, ⟨83, _⟩ => ⟨S40000x1, .f32⟩
  | .hbm, ⟨84, _⟩ => ⟨S40000x1, .f32⟩
  | .hbm, ⟨85, _⟩ => ⟨S40000x128, .f32⟩
  | .hbm, ⟨86, _⟩ => ⟨S40000x128, .f32⟩
  | .hbm, ⟨87, _⟩ => ⟨S_, .f32⟩
  | .hbm, ⟨88, _⟩ => ⟨S40000x1, .f32⟩
  | .hbm, ⟨89, _⟩ => ⟨S40000x1, .f32⟩
  | .hbm, ⟨90, _⟩ => ⟨S40000x1, .f32⟩
  | .hbm, ⟨91, _⟩ => ⟨S40000x128, .f32⟩
  | .hbm, ⟨92, _⟩ => ⟨S40000x128, .f32⟩
  | .hbm, ⟨93, _⟩ => ⟨S1x128, .f32⟩
  | .hbm, ⟨94, _⟩ => ⟨S40000x128, .f32⟩
  | .hbm, ⟨95, _⟩ => ⟨S40000x128, .f32⟩
  | .hbm, ⟨96, _⟩ => ⟨S1x128, .f32⟩
  | .hbm, ⟨97, _⟩ => ⟨S40000x128, .f32⟩
  | .hbm, ⟨98, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  transposes_S128x256_S256x128_1_0 : S128x256.Transposes [1, 0] S256x128
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  One message-passing layer, row by row, on the extended reals.

  A node's message is a two-layer perceptron of its own feature row, so the message of an edge is the
  perceptron of the source node's row: computing it per node and reading it at the source is the same as
  reading the source row and computing it per edge.  The update perceptron reads the 256 concatenated
  features [x, agg]; a sum over 256 products is the sum over the first 128 plus the sum over the last 128,
  which needs only that addition is associative and commutative.  The row is then normalised: the centred
  value times the reciprocal square root of (variance + eps), or the centred value divided by the square
  root of the same.  On the extended reals those agree exactly when variance + eps is positive, and it
  always is: a square is never negative (the infinities included), so neither is a sum of squares nor its
  quotient by 128, and eps is a positive real.
-/
import Idealize.ShloMosaic.PureOps.Ideal.Laws
import Idealize.ShloMosaic.Lib.ValueIdx

noncomputable section

namespace Cert.MP

open Idealize.ShloMosaic

/-! ## The three float words the layer spells -/

/-- The word of 128.0 denotes the real 128. -/
theorem ofBits_128 : Ideal.ofBits .f32 0x43000000#32 = ((128 : ℝ) : EReal) := by
  simp [Ideal.ofBits, Ideal.ieee, -EReal.coe_mul]; norm_num

/-- The word of eps (the float nearest 1e-5) denotes a positive real. -/
theorem eps_pos : ∃ r : ℝ, 0 < r ∧ Ideal.ofBits .f32 0x3727C5AC#32 = (r : EReal) := by
  refine ⟨_, ?_, by simp [Ideal.ofBits, Ideal.ieee, -EReal.coe_mul]; rfl⟩
  positivity

/-! ## Rows -/

/-- Output unit `c` of a dense layer whose weight is stored [out, in]: the row against the weight's row `c`,
    plus the bias. -/
def dense {K : Nat} (v : Fin K → EReal) (W : Fin 128 → Fin K → EReal) (b : Fin 128 → EReal) (c : Fin 128) : EReal :=
  (∑ k : Fin K, v k * W c k) + b c

/-- The rectifier: the larger of the value and the zero word's value. -/
def relu (v : EReal) : EReal := max v (Ideal.ofBits .f32 0x00000000#32)

/-- The message perceptron of one feature row. -/
def msgRow (xr : Fin 128 → EReal) (W1 : Fin 128 → Fin 128 → EReal) (b1 : Fin 128 → EReal)
    (W2 : Fin 128 → Fin 128 → EReal) (b2 : Fin 128 → EReal) (c : Fin 128) : EReal :=
  dense (fun k => relu (dense xr W1 b1 k)) W2 b2 c

/-- The update perceptron of a node's own row and its aggregated row, the first layer's weight given as its
    two halves, plus the node's own row (the residual). -/
def updRow (xr ar : Fin 128 → EReal) (W1x W1a : Fin 128 → Fin 128 → EReal) (b1 : Fin 128 → EReal)
    (W2 : Fin 128 → Fin 128 → EReal) (b2 : Fin 128 → EReal) (c : Fin 128) : EReal :=
  dense (fun k => relu (((∑ j : Fin 128, xr j * W1x k j) + ∑ j : Fin 128, ar j * W1a k j) + b1 k)) W2 b2 c + xr c

/-- A sum over 256 terms is the sum of the first 128 plus the sum of the last 128. -/
theorem sum_256_split (f : Fin 256 → EReal) :
    ∑ k : Fin 256, f k
      = (∑ j : Fin 128, f ⟨j.val, by have := j.isLt; omega⟩) + ∑ j : Fin 128, f ⟨128 + j.val, by have := j.isLt; omega⟩ :=
  Fin.sum_univ_add (a := 128) (b := 128) f

/-! ## Normalising a row -/

/-- The row's mean: its sum over 128. -/
def mean (h : Fin 128 → EReal) : EReal := Ideal.div (∑ c : Fin 128, h c) (Ideal.ofBits .f32 0x43000000#32)

/-- The mean of the squared centred values, plus eps: what the square root is taken of. -/
def scaleArg (h : Fin 128 → EReal) : EReal :=
  Ideal.div (∑ c : Fin 128, (h c - mean h) * (h c - mean h)) (Ideal.ofBits .f32 0x43000000#32)
    + Ideal.ofBits .f32 0x3727C5AC#32

/-- Normalised by the reciprocal square root, then scaled and shifted. -/
def normMul (h g b : Fin 128 → EReal) (c : Fin 128) : EReal :=
  (h c - mean h) * Ideal.rsqrt (scaleArg h) * g c + b c

/-- Normalised by dividing by the square root, then scaled and shifted. -/
def normDiv (h g b : Fin 128 → EReal) (c : Fin 128) : EReal :=
  Ideal.div (h c - mean h) (Ideal.sqrt (scaleArg h)) * g c + b c

/-- A square is never negative on the extended reals: the infinities square to +inf. -/
theorem mul_self_nonneg' (d : EReal) : 0 ≤ d * d := by
  induction d using EReal.rec with
  | bot => rw [EReal.bot_mul_bot]; exact le_top
  | coe r => rw [← EReal.coe_mul]; exact_mod_cast mul_self_nonneg r
  | top => rw [EReal.top_mul_top]; exact le_top

/-- The quotient of a non-negative extended real by 128 is non-negative. -/
theorem div_128_nonneg {s : EReal} (hs : 0 ≤ s) : 0 ≤ Ideal.div s (Ideal.ofBits .f32 0x43000000#32) := by
  rw [ofBits_128, Ideal.div_coe (by norm_num : (128 : ℝ) ≠ 0)]
  exact mul_nonneg hs (by exact_mod_cast (by norm_num : (0 : ℝ) ≤ 1 / 128))

/-- What the square root is taken of is positive, whatever the row holds. -/
theorem scaleArg_pos (h : Fin 128 → EReal) : 0 < scaleArg h := by
  obtain ⟨r, hr, he⟩ := eps_pos
  unfold scaleArg
  rw [he]
  have h0 : 0 ≤ Ideal.div (∑ c : Fin 128, (h c - mean h) * (h c - mean h)) (Ideal.ofBits .f32 0x43000000#32) :=
    div_128_nonneg (Finset.sum_nonneg fun c _ => mul_self_nonneg' _)
  calc (0 : EReal) < (r : EReal) := by exact_mod_cast hr
    _ = 0 + (r : EReal) := (zero_add _).symm
    _ ≤ _ := add_le_add h0 le_rfl

/-- At a positive argument, multiplying by the reciprocal square root is dividing by the square root. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- The two normalisations are one function of the row. -/
theorem normMul_eq_normDiv (h g b : Fin 128 → EReal) (c : Fin 128) : normMul h g b c = normDiv h g b c := by
  unfold normMul normDiv
  rw [mul_rsqrt_eq_div_sqrt _ _ (scaleArg_pos h)]

end Cert.MP

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.KPay.lean ====
/-
  The two kernel bodies, read at one entry of their output block.

  The message body's block entry (p, q) is the message perceptron of row p of its feature block; the weight
  blocks arrive transposed, [in, out], so the perceptron's [out, in] weight reads them with the coordinates
  swapped.  Changes of float format are the identity on the extended reals and a matrix product into a zero
  accumulator is the plain sum over the shared axis, so each entry is a composition of sums, maxima and sums.
-/
import proofs.«160871_j88751204204556_1_alg».proof.Proof.Gen.KernelIdeal.Skeleton
import proofs.«160871_j88751204204556_1_alg».proof.Proof.Spec
import proofs.«160871_j88751204204556_1_alg».proof.Proof.LibRowOps
import Idealize.ShloMosaic.Lib.ValueLayout

noncomputable section

namespace Cert.MP.Pay

open Idealize.ShloMosaic Idealize.ShloMosaic.ValueIdx Cert.KernelIdeal Cert.KernelIdeal.Gen Cert.MP

theorem plain4000 : RowOps.IsPlain dot_S4000x128_S128x128_S4000x128_1_0_0_1_n_n := ⟨rfl, rfl, rfl, rfl, rfl, rfl⟩
theorem plain2000 : RowOps.IsPlain dot_S2000x128_S128x128_S2000x128_1_0_0_1_n_n := ⟨rfl, rfl, rfl, rfl, rfl, rfl⟩

/-- A length-128 vector viewed as one row and repeated over `a` rows reads, at (p, q), its entry q. -/
theorem rowRepeat_apply {α : Type} {a : Nat} (v : (⟨1, ![128]⟩ : Shape).Idx → α)
    (h1 : (⟨1, ![128]⟩ : Shape).ShapeCasts ⟨2, ![1, 128]⟩) (h2 : (⟨2, ![1, 128]⟩ : Shape).Broadcasts ⟨2, ![a, 128]⟩)
    (p : Fin a) (q : Fin 128) :
    broadcastTo ⟨2, ![a, 128]⟩ (shapeCast ⟨2, ![1, 128]⟩ v h1) h2 (ix2 p q) = v (ix1 q) :=
  (broadcastTo_1b_ab_apply _ h2 p q).trans (shapeCast_a_1a_apply v h1 0 q)

/-- The message body's stored value at (p, q): the message perceptron of row p. -/
theorem pay0_apply (v0 : FVec Ideal S4000x128 .f32) (v2 : FVec Ideal S128x128 .f32) (v6 : FVec Ideal S128 .f32)
    (v13 : FVec Ideal S128x128 .f32) (v17 : FVec Ideal S128 .f32) (p : Fin 4000) (q : Fin 128) :
    k0_pay1 (F := Ideal) v0 v2 v6 v13 v17 (ix2 p q)
      = msgRow (fun j => v0 (ix2 p j)) (fun k j => v2 (ix2 j k)) (fun k => v6 (ix1 k))
          (fun c k => v13 (ix2 k c)) (fun c => v17 (ix1 c)) q := by
  unfold msgRow dense relu
  dsimp only [k0_pay1]
  refine congrArg₂ (· + ·) ?_ (rowRepeat_apply v17 _ _ p q)
  refine (RowOps.matmul_zero_apply plain4000 none _ _ p q).trans (Finset.sum_congr rfl fun k _ => ?_)
  refine congrArg₂ (· * ·) ?_ (congrFun (shapeCast_self v13 _) (ix2 k q))
  refine congrArg₂ max (congrArg₂ (· + ·) ?_ (rowRepeat_apply v6 _ _ p k)) rfl
  refine (RowOps.matmul_zero_apply plain4000 none _ _ p k).trans (Finset.sum_congr rfl fun j _ => ?_)
  exact congrArg₂ (· * ·) rfl (congrFun (shapeCast_self v2 _) (ix2 j k))

/-! ## The update body -/

section Update

variable (v0 v1 : FVec Ideal S2000x128 .f32) (v5 v8 : FVec Ideal S128x128 .f32) (v14 : FVec Ideal S128 .f32)
  (v21 : FVec Ideal S128x128 .f32) (v25 : FVec Ideal S128 .f32)

/-- Row p of the update body's residual sum: the update perceptron of the node's row and its aggregated row
    (weight blocks transposed, as in the message body), plus the node's own row. -/
abbrev hrow (p : Fin 2000) : Fin 128 → EReal :=
  updRow (fun j => v0 (ix2 p j)) (fun j => v1 (ix2 p j)) (fun k j => v5 (ix2 j k)) (fun k j => v8 (ix2 j k))
    (fun k => v14 (ix1 k)) (fun c k => v21 (ix2 k c)) (fun c => v25 (ix1 c))

/-- The residual sum at (p, q). -/
theorem pay2_apply (p : Fin 2000) (q : Fin 128) :
    k1_pay2 (F := Ideal) v0 v1 v5 v8 v14 v21 v25 (ix2 p q) = hrow v0 v1 v5 v8 v14 v21 v25 p q := by
  unfold hrow updRow dense relu
  dsimp only [k1_pay2]
  refine congrArg₂ (· + ·) (congrArg₂ (· + ·) ?_ (rowRepeat_apply v25 _ _ p q)) rfl
  refine (RowOps.matmul_zero_apply plain2000 none _ _ p q).trans (Finset.sum_congr rfl fun k _ => ?_)
  refine congrArg₂ (· * ·) ?_ (congrFun (shapeCast_self v21 _) (ix2 k q))
  refine congrArg₂ max (congrArg₂ (· + ·) (congrArg₂ (· + ·) ?_ ?_) (rowRepeat_apply v14 _ _ p k)) rfl
  · refine (RowOps.matmul_zero_apply plain2000 none _ _ p k).trans (Finset.sum_congr rfl fun j _ => ?_)
    exact congrArg₂ (· * ·) rfl (congrFun (shapeCast_self v5 _) (ix2 j k))
  · refine (RowOps.matmul_zero_apply plain2000 none _ _ p k).trans (Finset.sum_congr rfl fun j _ => ?_)
    exact congrArg₂ (· * ·) (congrFun (shapeCast_self v1 _) (ix2 p j)) (congrFun (shapeCast_self v8 _) (ix2 j k))

/-- The row mean, kept as a one-wide column: at (p, 0) the mean of row p. -/
theorem pay3_apply (p : Fin 2000) (u : Fin 1) :
    k1_pay3 (F := Ideal) v0 v1 v5 v8 v14 v21 v25 (ix2 p u) = mean (hrow v0 v1 v5 v8 v14 v21 v25 p) := by
  unfold mean
  dsimp only [k1_pay3]
  refine congrArg₂ Ideal.div ?_ rfl
  refine (RowOps.column_apply _ _ p u).trans ((RowOps.rowSum_apply _ _ _ _ _ p).trans ?_)
  exact Finset.sum_congr rfl fun c _ => pay2_apply v0 v1 v5 v8 v14 v21 v25 p c

/-- The summed squared deviations of row p from its mean, kept as a one-wide column. -/
theorem pay4_apply (p : Fin 2000) (u : Fin 1) :
    k1_pay4 (F := Ideal) v0 v1 v5 v8 v14 v21 v25 (ix2 p u)
      = ∑ c : Fin 128, (hrow v0 v1 v5 v8 v14 v21 v25 p c - mean (hrow v0 v1 v5 v8 v14 v21 v25 p))
          * (hrow v0 v1 v5 v8 v14 v21 v25 p c - mean (hrow v0 v1 v5 v8 v14 v21 v25 p)) := by
  dsimp only [k1_pay4]
  refine (RowOps.column_apply _ _ p u).trans ((RowOps.rowSum_apply _ _ _ _ _ p).trans
    (Finset.sum_congr rfl fun c _ => ?_))
  have e : (subf (k1_pay2 (F := Ideal) v0 v1 v5 v8 v14 v21 v25)
        (broadcastTo S2000x128 (k1_pay3 (F := Ideal) v0 v1 v5 v8 v14 v21 v25) broadcasts_S2000x1_S2000x128)) (ix2 p c)
      = hrow v0 v1 v5 v8 v14 v21 v25 p c - mean (hrow v0 v1 v5 v8 v14 v21 v25 p) :=
    congrArg₂ (· - ·) (pay2_apply v0 v1 v5 v8 v14 v21 v25 p c)
      ((RowOps.spread_apply _ _ p c).trans (pay3_apply v0 v1 v5 v8 v14 v21 v25 p 0))
  exact congrArg₂ (· * ·) e e

end Update

/-- The last stretch of the update body at (p, q), over whatever its four carried values are: the centred entry
    times the reciprocal square root of (the carried sum over the divisor, plus eps), scaled and shifted. -/
theorem pay1_apply (v29 : FVec Ideal S2000x128 .f32) (v33 v38 : FVec Ideal S2000x1 .f32) (n : Ideal .f32)
    (v48 v52 : FVec Ideal S128 .f32) (p : Fin 2000) (q : Fin 128) :
    k1_pay1 (F := Ideal) v29 v33 v38 n v48 v52 (ix2 p q)
      = (v29 (ix2 p q) - v33 (ix2 p (0 : Fin 1)))
          * Ideal.rsqrt (Ideal.div (v38 (ix2 p (0 : Fin 1))) n + Ideal.ofBits .f32 0x3727C5AC#32)
          * v48 (ix1 q) + v52 (ix1 q) := by
  dsimp only [k1_pay1]
  refine congrArg₂ (· + ·) (congrArg₂ (· * ·) (congrArg₂ (· * ·) ?_ ?_) (rowRepeat_apply v48 _ _ p q))
    (rowRepeat_apply v52 _ _ p q)
  · exact congrArg₂ (· - ·) rfl (RowOps.spread_apply _ _ p q)
  · exact RowOps.spread_apply _ _ p q

/-- The update body's stored value at (p, q): row p's residual sum, normalised by the reciprocal square root,
    scaled by gamma and shifted by beta. -/
theorem body1_apply (x0 x1 : FVec Ideal S2000x128 .f32) (x2 x3 : FVec Ideal S128x128 .f32) (x4 : FVec Ideal S128 .f32)
    (x5 : FVec Ideal S128x128 .f32) (x6 x7 x8 : FVec Ideal S128 .f32) (p : Fin 2000) (q : Fin 128) :
    k1_pay1 (F := Ideal) (k1_pay2 x0 x1 x2 x3 x4 x5 x6) (k1_pay3 x0 x1 x2 x3 x4 x5 x6) (k1_pay4 x0 x1 x2 x3 x4 x5 x6)
        (Scalar.ofBits .f32 0x43000000#32) x7 x8 (ix2 p q)
      = normMul (hrow x0 x1 x2 x3 x4 x5 x6 p) (fun c => x7 (ix1 c)) (fun c => x8 (ix1 c)) q := by
  rw [pay1_apply, pay2_apply, pay3_apply, pay4_apply]
  rfl

end Cert.MP.Pay

end
-- ==== Proof.Arrays.lean ====
/-
  The layer's three stages as functions of whole arrays, entry by entry.

  A [R, 128] array's entry (r, c) of the message stage depends on row r of the features only, and likewise for
  the update stage on row r of the features and of the aggregate.  The weights are taken as both programs hold
  them, transposed to [in, out]; a dense layer's [out, in] weight reads them with the coordinates swapped.
-/
import proofs.«160871_j88751204204556_1_alg».proof.Proof.Spec

noncomputable section

namespace Cert.MP

open Idealize.ShloMosaic Idealize.ShloMosaic.ValueIdx

/-- The message perceptron applied to every row of `x`. -/
def MsgOf {R : Nat} (x : (⟨2, ![R, 128]⟩ : Shape).Idx → EReal) (w1t : (⟨2, ![128, 128]⟩ : Shape).Idx → EReal)
    (b1 : (⟨1, ![128]⟩ : Shape).Idx → EReal) (w2t : (⟨2, ![128, 128]⟩ : Shape).Idx → EReal)
    (b2 : (⟨1, ![128]⟩ : Shape).Idx → EReal) : (⟨2, ![R, 128]⟩ : Shape).Idx → EReal :=
  fun i => msgRow (fun j => x (ix2 (i 0) j)) (fun k j => w1t (ix2 j k)) (fun k => b1 (ix1 k))
    (fun c k => w2t (ix2 k c)) (fun c => b2 (ix1 c)) (i 1)

/-- Row r of the update stage's residual sum. -/
abbrev updOf {R : Nat} (x agg : (⟨2, ![R, 128]⟩ : Shape).Idx → EReal) (w1x w1a : (⟨2, ![128, 128]⟩ : Shape).Idx → EReal)
    (b1 : (⟨1, ![128]⟩ : Shape).Idx → EReal) (w2t : (⟨2, ![128, 128]⟩ : Shape).Idx → EReal)
    (b2 : (⟨1, ![128]⟩ : Shape).Idx → EReal) (r : Fin R) : Fin 128 → EReal :=
  updRow (fun j => x (ix2 r j)) (fun j => agg (ix2 r j)) (fun k j => w1x (ix2 j k)) (fun k j => w1a (ix2 j k))
    (fun k => b1 (ix1 k)) (fun c k => w2t (ix2 k c)) (fun c => b2 (ix1 c))

/-- The update perceptron, the residual and the normalisation (by the reciprocal square root) applied to every row. -/
def OutOf {R : Nat} (x agg : (⟨2, ![R, 128]⟩ : Shape).Idx → EReal) (w1x w1a : (⟨2, ![128, 128]⟩ : Shape).Idx → EReal)
    (b1 : (⟨1, ![128]⟩ : Shape).Idx → EReal) (w2t : (⟨2, ![128, 128]⟩ : Shape).Idx → EReal)
    (b2 g be : (⟨1, ![128]⟩ : Shape).Idx → EReal) : (⟨2, ![R, 128]⟩ : Shape).Idx → EReal :=
  fun i => normMul (updOf x agg w1x w1a b1 w2t b2 (i 0)) (fun c => g (ix1 c)) (fun c => be (ix1 c)) (i 1)

/-- The update stage at (r, q) from any spelling of row r of the features and of the aggregate. -/
theorem OutOf_row {R : Nat} (x agg : (⟨2, ![R, 128]⟩ : Shape).Idx → EReal) (w1x w1a : (⟨2, ![128, 128]⟩ : Shape).Idx → EReal)
    (b1 : (⟨1, ![128]⟩ : Shape).Idx → EReal) (w2t : (⟨2, ![128, 128]⟩ : Shape).Idx → EReal)
    (b2 g be : (⟨1, ![128]⟩ : Shape).Idx → EReal) (r : Fin R) (q : Fin 128) (f a : Fin 128 → EReal)
    (hf : f = fun j => x (ix2 r j)) (ha : a = fun j => agg (ix2 r j)) :
    normMul (updRow f a (fun k j => w1x (ix2 j k)) (fun k j => w1a (ix2 j k)) (fun k => b1 (ix1 k))
        (fun c k => w2t (ix2 k c)) (fun c => b2 (ix1 c))) (fun c => g (ix1 c)) (fun c => be (ix1 c)) q
      = OutOf x agg w1x w1a b1 w2t b2 g be (ix2 r q) := by
  subst hf ha; rfl

/-- The message stage at (r, q) from any spelling of row r of the features. -/
theorem MsgOf_row {R : Nat} (x : (⟨2, ![R, 128]⟩ : Shape).Idx → EReal) (w1t : (⟨2, ![128, 128]⟩ : Shape).Idx → EReal)
    (b1 : (⟨1, ![128]⟩ : Shape).Idx → EReal) (w2t : (⟨2, ![128, 128]⟩ : Shape).Idx → EReal)
    (b2 : (⟨1, ![128]⟩ : Shape).Idx → EReal) (r : Fin R) (q : Fin 128) (f : Fin 128 → EReal)
    (hf : f = fun j => x (ix2 r j)) :
    msgRow f (fun k j => w1t (ix2 j k)) (fun k => b1 (ix1 k)) (fun c k => w2t (ix2 k c)) (fun c => b2 (ix1 c)) q
      = MsgOf x w1t b1 w2t b2 (ix2 r q) := by
  subst hf; rfl

end Cert.MP

end
-- ==== Proof.KArr0.lean ====
/-
  The message stage: from the blocks the grid writes back to the whole array.

  Grid point t handles rows 4000 t … 4000 t + 3999 of the features; the four parameter windows are the whole
  arrays at every point.  So the block a point writes back is the restriction to those rows of one function of
  the arrays as the region finds them, and the ten blocks tile the array.
-/
import proofs.«160871_j88751204204556_1_alg».proof.Proof.Gen.KernelIdeal.Frame
import proofs.«160871_j88751204204556_1_alg».proof.Proof.KPay
import proofs.«160871_j88751204204556_1_alg».proof.Proof.Arrays

set_option maxRecDepth 16384

noncomputable section

namespace Cert.MP.Arr0

open Idealize.ShloMosaic Idealize.ShloMosaic.TcCoe Idealize.ShloMosaic.ValueIdx Idealize.SL.Sem
open Cert.KernelIdeal Cert.KernelIdeal.Gen Cert.MP
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature and output windows move one block of rows per point, the
    parameter windows stay at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back: block `t` of the message stage of the arrays as the region finds them. -/
theorem flushed0 (c : Dev nD) (t : Fin cfg0.N) :
    (dat0 (F := Ideal) V c).flushed 5 t = ((cfg0.win 5).blk t).view.read (Elt Ideal)
      (MsgOf (V c main_arg0) (V c main_v0) (V c main_arg3) (V c main_v1) (V c main_arg5)) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S128x128) hz2, View.ld_unit_zero (S := S128) hz1]
  obtain ⟨e00, e01, e10, e11, e20, e30, e31, e40, e50, e51⟩ := idx0 t
  have hN : t.val < 10 := by have := t.isLt; have h10 : cfg0.N = 10 := N_0; omega
  have hw1 : iblk0 V c 1 t = V c main_v0 := by
    funext y
    show V c main_v0 (((cfg0.win 1).blk t).view.emb y) = V c main_v0 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hw2 : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 1) * 128 + 1 * (y 0).val = (y 0).val; omega
  have hw3 : iblk0 V c 3 t = V c main_v1 := by
    funext y
    show V c main_v1 (((cfg0.win 3).blk t).view.emb y) = V c main_v1 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_arg5 := by
    funext y
    show V c main_arg5 (((cfg0.win 4).blk t).view.emb y) = V c main_arg5 y
    refine congrArg _ (funext fun a => Fin.ext ?_)
    match a with
    | ⟨0, _⟩ => show win0_4.index t (0 : Fin 1) * 128 + 1 * (y 0).val = (y 0).val; omega
  rw [hw1, hw2, hw3, hw4]
  funext j
  obtain ⟨p, q, rfl⟩ : ∃ (p : Fin 4000) (q : Fin 128), j = ix2 p q := ⟨j 0, j 1, eq_ix2 j⟩
  have hr : ((cfg0.win 5).blk t).view.emb (ix2 p q)
      = (ix2 (⟨t.val * 4000 + p.val, by have := p.isLt; omega⟩ : Fin 40000) q : S40000x128.Idx) := by
    funext a; apply Fin.ext
    match a with
    | ⟨0, _⟩ => show win0_5.index t (0 : Fin 2) * 4000 + 1 * p.val = t.val * 4000 + p.val; omega
    | ⟨1, _⟩ => show win0_5.index t (1 : Fin 2) * 128 + 1 * q.val = q.val; omega
  show k0_pay1 (iblk0 V c 0 t) (V c main_v0) (V c main_arg3) (V c main_v1) (V c main_arg5) (ix2 p q)
    = MsgOf (V c main_arg0) (V c main_v0) (V c main_arg3) (V c main_v1) (V c main_arg5)
        (((cfg0.win 5).blk t).view.emb (ix2 p q))
  rw [hr]
  refine (Pay.pay0_apply _ _ _ _ _ p q).trans ?_
  show msgRow _ _ _ _ _ q = msgRow _ _ _ _ _ q
  refine congrArg (fun f => msgRow f _ _ _ _ q) (funext fun j' => ?_)
  show V c main_arg0 (((cfg0.win 0).blk t).view.emb (ix2 p j')) = V c main_arg0 (ix2 _ j')
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * j'.val = j'.val; omega

/-- An index of the array is in point `t`'s block iff each coordinate is in the block's range on its axis. -/
theorem mem_blk0 (t : Fin cfg0.N) (i : S40000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v2).slice (win0_5.rect t)).set ↔ _
  rw [View.set_slice_whole, Rect.mem_set_unit]
  exact Iff.rfl

/-- Every entry of the array is in some point's block: row r in point r / 4000's. -/
theorem cover0 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have h10 : cfg0.N = 10 := N_0
  obtain ⟨t, ht⟩ : ∃ t : Fin cfg0.N, t.val = (i 0).val / 4000 := ⟨⟨(i 0).val / 4000, by rw [h10]; omega⟩, rfl⟩
  obtain ⟨-, -, -, -, -, -, -, -, e50, e51⟩ := idx0 t
  refine ⟨t, flush0_5 t, ?_⟩
  rw [mem_blk0]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- The message array after the region: the message stage of the arrays as the region finds them. -/
theorem final0 (c : Dev nD) :
    (dat0 (F := Ideal) V c).arrAt 5 cfg0.N
      = MsgOf (V c main_arg0) (V c main_v0) (V c main_arg3) (V c main_v1) (V c main_arg5) :=
  (dat0 V c).arrAt_eq_of_cover 5 _ (fun t _ => flushed0 V c t) cover0

end Cert.MP.Arr0

end
-- ==== Proof.KArr1.lean ====
/-
  The update stage: from the blocks the grid writes back to the whole array.

  Grid point t handles rows 2000 t … 2000 t + 1999 of the features and of the aggregate; the seven parameter
  windows are the whole arrays at every point.  The block a point writes back is the restriction to those rows of
  one function of the arrays as the region finds them, and the twenty blocks tile the array.
-/
import proofs.«160871_j88751204204556_1_alg».proof.Proof.Gen.KernelIdeal.Frame
import proofs.«160871_j88751204204556_1_alg».proof.Proof.KPay
import proofs.«160871_j88751204204556_1_alg».proof.Proof.Arrays

set_option maxRecDepth 16384

noncomputable section

namespace Cert.MP.Arr1

open Idealize.ShloMosaic Idealize.ShloMosaic.TcCoe Idealize.ShloMosaic.ValueIdx Idealize.SL.Sem
open Cert.KernelIdeal Cert.KernelIdeal.Gen Cert.MP
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature, aggregate and output windows move one block of rows per
    point, the parameter windows stay at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0
    ∧ win1_9.index t (0 : Fin 2) = t.val ∧ win1_9.index t (1 : Fin 2) = 0 :=
  (by decide +kernel : ∀ t : Fin grid1.N, _)

set_option maxHeartbeats 2000000 in
/-- What point `t` writes back: block `t` of the update stage of the arrays as the region finds them. -/
theorem flushed1 (c : Dev nD) (t : Fin cfg1.N) :
    (dat1 (F := Ideal) V c).flushed 9 t = ((cfg1.win 9).blk t).view.read (Elt Ideal)
      (OutOf (V c main_arg0) (V c main_v24) (V c main_v26) (V c main_v27) (V c main_arg7) (V c main_v28)
        (V c main_arg9) (V c main_arg10) (V c main_arg11)) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S128x128) hz2, View.ld_unit_zero (S := S128) hz1]
  obtain ⟨e00, e01, e10, e11, e20, e21, e30, e31, e40, e50, e51, e60, e70, e80, e90, e91⟩ := idx1 t
  have hN : t.val < 20 := by have := t.isLt; have h20 : cfg1.N = 20 := N_1; omega
  have hw2 : iblk1 V c 2 t = V c main_v26 := by
    funext y
    show V c main_v26 (((cfg1.win 2).blk t).view.emb y) = V c main_v26 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw3 : iblk1 V c 3 t = V c main_v27 := by
    funext y
    show V c main_v27 (((cfg1.win 3).blk t).view.emb y) = V c main_v27 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_arg7 := by
    funext y
    show V c main_arg7 (((cfg1.win 4).blk t).view.emb y) = V c main_arg7 y
    refine congrArg _ (funext fun a => Fin.ext ?_)
    match a with
    | ⟨0, _⟩ => show win1_4.index t (0 : Fin 1) * 128 + 1 * (y 0).val = (y 0).val; omega
  have hw5 : iblk1 V c 5 t = V c main_v28 := by
    funext y
    show V c main_v28 (((cfg1.win 5).blk t).view.emb y) = V c main_v28 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have hw6 : iblk1 V c 6 t = V c main_arg9 := by
    funext y
    show V c main_arg9 (((cfg1.win 6).blk t).view.emb y) = V c main_arg9 y
    refine congrArg _ (funext fun a => Fin.ext ?_)
    match a with
    | ⟨0, _⟩ => show win1_6.index t (0 : Fin 1) * 128 + 1 * (y 0).val = (y 0).val; omega
  have hw7 : iblk1 V c 7 t = V c main_arg10 := by
    funext y
    show V c main_arg10 (((cfg1.win 7).blk t).view.emb y) = V c main_arg10 y
    refine congrArg _ (funext fun a => Fin.ext ?_)
    match a with
    | ⟨0, _⟩ => show win1_7.index t (0 : Fin 1) * 128 + 1 * (y 0).val = (y 0).val; omega
  have hw8 : iblk1 V c 8 t = V c main_arg11 := by
    funext y
    show V c main_arg11 (((cfg1.win 8).blk t).view.emb y) = V c main_arg11 y
    refine congrArg _ (funext fun a => Fin.ext ?_)
    match a with
    | ⟨0, _⟩ => show win1_8.index t (0 : Fin 1) * 128 + 1 * (y 0).val = (y 0).val; omega
  rw [hw2, hw3, hw4, hw5, hw6, hw7, hw8]
  funext j
  obtain ⟨p, q, rfl⟩ : ∃ (p : Fin 2000) (q : Fin 128), j = ix2 p q := ⟨j 0, j 1, eq_ix2 j⟩
  have hr : ((cfg1.win 9).blk t).view.emb (ix2 p q)
      = (ix2 (⟨t.val * 2000 + p.val, by have := p.isLt; omega⟩ : Fin 40000) q : S40000x128.Idx) := by
    funext a; apply Fin.ext
    match a with
    | ⟨0, _⟩ => show win1_9.index t (0 : Fin 2) * 2000 + 1 * p.val = t.val * 2000 + p.val; omega
    | ⟨1, _⟩ => show win1_9.index t (1 : Fin 2) * 128 + 1 * q.val = q.val; omega
  show k1_pay1 (k1_pay2 (iblk1 V c 0 t) (iblk1 V c 1 t) (V c main_v26) (V c main_v27) (V c main_arg7) (V c main_v28) (V c main_arg9))
      (k1_pay3 (iblk1 V c 0 t) (iblk1 V c 1 t) (V c main_v26) (V c main_v27) (V c main_arg7) (V c main_v28) (V c main_arg9))
      (k1_pay4 (iblk1 V c 0 t) (iblk1 V c 1 t) (V c main_v26) (V c main_v27) (V c main_arg7) (V c main_v28) (V c main_arg9))
      (Scalar.ofBits .f32 0x43000000#32) (V c main_arg10) (V c main_arg11) (ix2 p q)
    = OutOf (V c main_arg0) (V c main_v24) (V c main_v26) (V c main_v27) (V c main_arg7) (V c main_v28)
        (V c main_arg9) (V c main_arg10) (V c main_arg11) (((cfg1.win 9).blk t).view.emb (ix2 p q))
  rw [hr]
  refine (Pay.body1_apply _ _ _ _ _ _ _ _ _ p q).trans ?_
  have h0 : (fun j' : Fin 128 => iblk1 V c 0 t (ix2 p j'))
      = fun j' : Fin 128 => V c main_arg0 (ix2 (⟨t.val * 2000 + p.val, by have := p.isLt; omega⟩ : Fin 40000) j') := by
    funext j'
    show V c main_arg0 (((cfg1.win 0).blk t).view.emb (ix2 p j')) = V c main_arg0 (ix2 _ j')
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * j'.val = j'.val; omega
  have h1 : (fun j' : Fin 128 => iblk1 V c 1 t (ix2 p j'))
      = fun j' : Fin 128 => V c main_v24 (ix2 (⟨t.val * 2000 + p.val, by have := p.isLt; omega⟩ : Fin 40000) j') := by
    funext j'
    show V c main_v24 (((cfg1.win 1).blk t).view.emb (ix2 p j')) = V c main_v24 (ix2 _ j')
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * j'.val = j'.val; omega
  exact OutOf_row (V c main_arg0) (V c main_v24) (V c main_v26) (V c main_v27) (V c main_arg7) (V c main_v28)
    (V c main_arg9) (V c main_arg10) (V c main_arg11) _ q _ _ h0 h1

/-- An index of the array is in point `t`'s block iff each coordinate is in the block's range on its axis. -/
theorem mem_blk1 (t : Fin cfg1.N) (i : S40000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v29).slice (win1_9.rect t)).set ↔ _
  rw [View.set_slice_whole, Rect.mem_set_unit]
  exact Iff.rfl

/-- Every entry of the array is in some point's block: row r in point r / 2000's. -/
theorem cover1 (i : S40000x128.Idx) :
    ∃ t : Fin cfg1.N, (cfg1.win 9).flush t = true ∧ i ∈ ((cfg1.win 9).blk t).view.set := by
  have hi0 : (i 0).val < 40000 := (i 0).isLt
  have hi1 : (i 1).val < 128 := (i 1).isLt
  have h20 : cfg1.N = 20 := N_1
  obtain ⟨t, ht⟩ : ∃ t : Fin cfg1.N, t.val = (i 0).val / 2000 := ⟨⟨(i 0).val / 2000, by rw [h20]; omega⟩, rfl⟩
  obtain ⟨-, -, -, -, -, -, -, -, -, -, -, -, -, -, e90, e91⟩ := idx1 t
  refine ⟨t, flush1_9 t, ?_⟩
  rw [mem_blk1]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-- The result array after the region: the update stage of the arrays as the region finds them. -/
theorem final1 (c : Dev nD) :
    (dat1 (F := Ideal) V c).arrAt 9 cfg1.N
      = OutOf (V c main_arg0) (V c main_v24) (V c main_v26) (V c main_v27) (V c main_arg7) (V c main_v28)
          (V c main_arg9) (V c main_arg10) (V c main_arg11) :=
  (dat1 V c).arrAt_eq_of_cover 9 _ (fun t _ => flushed1 V c t) cover1

end Cert.MP.Arr1

end
-- ==== Proof.KHost.lean ====
/-
  The kernel program's host stretches: what each buffer holds when a region is entered.

  Before the message region the two message weights are transposed.  Between the regions the update's first weight
  is transposed and cut into its two halves, and its second weight is transposed.  No stretch and no region writes
  an argument, so every argument read along the way is the launch memory's.  (The aggregate, which the stretch
  between the regions also computes, is read in its own module.)
-/
import proofs.«160871_j88751204204556_1_alg».proof.Proof.Gen.KernelIdeal.Frame
import proofs.«160871_j88751204204556_1_alg».proof.Proof.KArr0
import proofs.«160871_j88751204204556_1_alg».proof.Proof.KArr1

set_option maxRecDepth 16384

noncomputable section

namespace Cert.MP.KHost

open Idealize.ShloMosaic Idealize.ShloMosaic.TcCoe Idealize.SL.Sem Idealize.ShloMosaic.StableHlo
open Cert.KernelIdeal Cert.KernelIdeal.Gen Cert.MP

variable (m : (ℓ : Loc nD τ sig) → Buf (Elt Ideal) ℓ) (ρ : Dev nD → PrngReg)

/-! ## At the message region's entry -/

set_option maxHeartbeats 8000000 in
theorem V1_arg0 (c : Dev nD) : V1 m ρ c main_arg0 = m ((c : Thread nD τ).loc main_arg0) := by
  dsimp only [V1, W1]
  after_results

set_option maxHeartbeats 8000000 in
theorem V1_v0 (c : Dev nD) : V1 m ρ c main_v0 = (transpose S128x128 [1, 0] (m ((c : Thread nD τ).loc main_arg2)) transposes_S128x128_S128x128_1_0) := by
  dsimp only [V1, W1]
  after_results

set_option maxHeartbeats 8000000 in
theorem V1_arg3 (c : Dev nD) : V1 m ρ c main_arg3 = m ((c : Thread nD τ).loc main_arg3) := by
  dsimp only [V1, W1]
  after_results

set_option maxHeartbeats 8000000 in
theorem V1_v1 (c : Dev nD) : V1 m ρ c main_v1 = (transpose S128x128 [1, 0] (m ((c : Thread nD τ).loc main_arg4)) transposes_S128x128_S128x128_1_0) := by
  dsimp only [V1, W1]
  after_results

set_option maxHeartbeats 8000000 in
theorem V1_arg5 (c : Dev nD) : V1 m ρ c main_arg5 = m ((c : Thread nD τ).loc main_arg5) := by
  dsimp only [V1, W1]
  after_results

/-! ## At the message region's exit -/

/-- The message array: the message stage of the launch memory's features and weights. -/
theorem W2_v2 (c : Dev nD) : W2 m ρ c (Proc.devRef .tc main_v2) = (MsgOf (m ((c : Thread nD τ).loc main_arg0)) (transpose S128x128 [1, 0] (m ((c : Thread nD τ).loc main_arg2)) transposes_S128x128_S128x128_1_0) (m ((c : Thread nD τ).loc main_arg3)) (transpose S128x128 [1, 0] (m ((c : Thread nD τ).loc main_arg4)) transposes_S128x128_S128x128_1_0) (m ((c : Thread nD τ).loc main_arg5))) := by
  refine (W2_arr m ρ c 5).trans ((Arr0.final0 (V1 m ρ) c).trans ?_)
  rw [V1_arg0, V1_v0, V1_arg3, V1_v1, V1_arg5]

set_option maxHeartbeats 8000000 in
theorem W2_arg1 (c : Dev nD) : W2 m ρ c (Proc.devRef .tc main_arg1) = m ((c : Thread nD τ).loc main_arg1) := by
  rw [W2_of_ne m ρ c main_arg1 (by decide)]
  dsimp only [W1]
  after_results

set_option maxHeartbeats 8000000 in
theorem W2_arg6 (c : Dev nD) : W2 m ρ c (Proc.devRef .tc main_arg6) = m ((c : Thread nD τ).loc main_arg6) := by
  rw [W2_of_ne m ρ c main_arg6 (by decide)]
  dsimp only [W1]
  after_results

set_option maxHeartbeats 8000000 in
theorem W2_arg8 (c : Dev nD) : W2 m ρ c (Proc.devRef .tc main_arg8) = m ((c : Thread nD τ).loc main_arg8) := by
  rw [W2_of_ne m ρ c main_arg8 (by decide)]
  dsimp only [W1]
  after_results

/-! ## At the update region's entry -/

theorem V5_arg0 (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans
    (W6_main_arg0 m ρ c)

theorem V5_arg7 (c : Dev nD) : V5 m ρ c main_arg7 = m ((c : Thread nD τ).loc main_arg7) :=
  ((W6_arr m ρ c 4).trans (((dat1 (V5 m ρ) c).arrAt_in 4 rfl _).trans (A_eq1 (V5 m ρ) c 4))).symm.trans
    (W6_main_arg7 m ρ c)

theorem V5_arg9 (c : Dev nD) : V5 m ρ c main_arg9 = m ((c : Thread nD τ).loc main_arg9) :=
  ((W6_arr m ρ c 6).trans (((dat1 (V5 m ρ) c).arrAt_in 6 rfl _).trans (A_eq1 (V5 m ρ) c 6))).symm.trans
    (W6_main_arg9 m ρ c)

theorem V5_arg10 (c : Dev nD) : V5 m ρ c main_arg10 = m ((c : Thread nD τ).loc main_arg10) :=
  ((W6_arr m ρ c 7).trans (((dat1 (V5 m ρ) c).arrAt_in 7 rfl _).trans (A_eq1 (V5 m ρ) c 7))).symm.trans
    (W6_main_arg10 m ρ c)

theorem V5_arg11 (c : Dev nD) : V5 m ρ c main_arg11 = m ((c : Thread nD τ).loc main_arg11) :=
  ((W6_arr m ρ c 8).trans (((dat1 (V5 m ρ) c).arrAt_in 8 rfl _).trans (A_eq1 (V5 m ρ) c 8))).symm.trans
    (W6_main_arg11 m ρ c)

set_option maxHeartbeats 8000000 in
theorem V5_v26 (c : Dev nD) : V5 m ρ c main_v26 = (extractStridedSlice S128x128 ![0, 0] (transpose S256x128 [1, 0] (m ((c : Thread nD τ).loc main_arg6)) transposes_S128x256_S256x128_1_0) slices_S256x128_S128x128_0_0) := by
  dsimp only [V5, W5, W4, W3]
  after_results
  rw [W2_arg6]

set_option maxHeartbeats 8000000 in
theorem V5_v27 (c : Dev nD) : V5 m ρ c main_v27 = (extractStridedSlice S128x128 ![128, 0] (transpose S256x128 [1, 0] (m ((c : Thread nD τ).loc main_arg6)) transposes_S128x256_S256x128_1_0) slices_S256x128_S128x128_128_0) := by
  dsimp only [V5, W5, W4, W3]
  after_results
  rw [W2_arg6]

set_option maxHeartbeats 8000000 in
theorem V5_v28 (c : Dev nD) : V5 m ρ c main_v28 = (transpose S128x128 [1, 0] (m ((c : Thread nD τ).loc main_arg8)) transposes_S128x128_S128x128_1_0) := by
  dsimp only [V5, W5, W4, W3]
  after_results
  rw [W2_arg8]

end Cert.MP.KHost

end
-- ==== Proof.Agg.lean ====
/-
  The scatter-mean, as one function of the per-edge messages and the edge list.

  Both programs aggregate the same way: the per-edge rows are summed into their destination nodes, the number of
  edges into each node is counted the same way from a vector of ones, the count is clamped below at one, and each
  summed row is divided by its clamped count.  Only the per-edge rows differ in how they were computed, so the
  aggregate is carried as one function of them and never opened.
-/
import proofs.«160871_j88751204204556_1_alg».proof.Proof.Gen.ReferenceIdeal.Read

set_option maxRecDepth 16384

noncomputable section

namespace Cert.MP

open Idealize.ShloMosaic Cert.ReferenceIdeal Cert.ReferenceIdeal.Read

/-- The scatter-mean of per-edge rows `U` by the destination indices of the edge list `x1`. -/
def AggOf (U : FVec Ideal S640000x128 .f32) (x1 : (⟨S2x640000, .i32⟩ : BufTy).Contents (Elt Ideal)) :
    FVec Ideal S40000x128 .f32 :=
  Host.divf (F := Ideal) (φ := .f32)
    (Host.scatterAdd (F := Ideal) (φ := .f32) scatter_S40000x128_S640000x1_S640000x128_1_0_0_1 (val_main_v22 (F := Ideal))
      (val_main_v23 (F := Ideal) x1) U)
    (val_main_v31 (F := Ideal) x1)

/-- The reference's aggregate is the scatter-mean of its per-edge messages. -/
theorem ref_agg (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v32 (F := Ideal) x0 x1 x2 x3 x4 x5 = AggOf (val_main_v21 (F := Ideal) x0 x1 x2 x3 x4 x5) x1 := rfl

end Cert.MP

end
-- ==== Proof.KAgg.lean ====
/-
  The kernel program's aggregate, at the update region's entry.

  The stretch between the regions computes it from the message array exactly as the reference computes its own
  from its per-edge messages: the same negative-index wrap and gather by the sources, the same scatter-add by the
  destinations into a zero table, the same count of a vector of ones clamped below at one, the same division.
  The stretch is read one buffer at a time — each buffer is one operation applied to the buffers it reads — and the
  index arrays, the zero tables, the vector of ones and the clamp's constant are the reference's own.
-/
import proofs.«160871_j88751204204556_1_alg».proof.Proof.Gen.KernelIdeal.Frame
import proofs.«160871_j88751204204556_1_alg».proof.Proof.Agg
import proofs.«160871_j88751204204556_1_alg».proof.Proof.KHost

set_option maxRecDepth 16384

noncomputable section

namespace Cert.MP.KAgg

open Idealize.ShloMosaic Idealize.ShloMosaic.TcCoe Idealize.SL.Sem Idealize.ShloMosaic.StableHlo
open Cert.KernelIdeal Cert.KernelIdeal.Gen Cert.MP

/-- A scatter-add of equal tables, indices and updates under equal dimension numbers. -/
theorem scatterAdd_congr {s si u : Shape} {w : Nat} {φ : FTy} (d d' : ScatterDims s si u) (z z' : FVec Ideal s φ)
    (i i' : IVec si w) (v v' : FVec Ideal u φ) (hd : d = d') (hz : z = z') (hi : i = i') (hv : v = v') :
    Host.scatterAdd (F := Ideal) d z i v = Host.scatterAdd (F := Ideal) d' z' i' v' := by
  subst hd hz hi hv; rfl

/-- A gather of one table by equal indices under equal dimension numbers. -/
theorem gather_congr {α : Type} {s si t : Shape} {w : Nat} (d d' : GatherDims s si t) (x : s.Idx → α) (i i' : IVec si w)
    (hd : d = d') (hi : i = i') : Host.gather d x i = Host.gather d' x i' := by
  subst hd hi; rfl

variable (m : (ℓ : Loc nD τ sig) → Buf (Elt Ideal) ℓ) (ρ : Dev nD → PrngReg)

/-! ## The leaves: what does not depend on the message array -/

set_option maxHeartbeats 8000000 in
theorem src_idx (c : Dev nD) : (W3 m ρ c (Proc.devRef .tc main_v12) : IVec S640000x1 32) = Cert.ReferenceIdeal.Read.val_main_v9 (F := Ideal) (m ((c : Thread nD τ).loc main_arg1)) := by
  dsimp only [W3]
  after_results
  rw [KHost.W2_arg1]
  try rfl

set_option maxHeartbeats 8000000 in
theorem dst_idx (c : Dev nD) : (W3 m ρ c (Proc.devRef .tc main_v15) : IVec S640000x1 32) = Cert.ReferenceIdeal.Read.val_main_v23 (F := Ideal) (m ((c : Thread nD τ).loc main_arg1)) := by
  dsimp only [W3]
  after_results
  rw [KHost.W2_arg1]
  try rfl

set_option maxHeartbeats 8000000 in
theorem dst_idx' (c : Dev nD) : (W3 m ρ c (Proc.devRef .tc main_v19) : IVec S640000x1 32) = Cert.ReferenceIdeal.Read.val_main_v27 (F := Ideal) (m ((c : Thread nD τ).loc main_arg1)) := by
  dsimp only [W3]
  after_results
  rw [KHost.W2_arg1]
  try rfl

set_option maxHeartbeats 8000000 in
theorem zero_tab (c : Dev nD) : (W3 m ρ c (Proc.devRef .tc main_v14) : FVec Ideal S40000x128 .f32) = Cert.ReferenceIdeal.Read.val_main_v22 (F := Ideal) := by
  dsimp only [W3]
  after_results
  try rfl

set_option maxHeartbeats 8000000 in
theorem ones (c : Dev nD) : (W3 m ρ c (Proc.devRef .tc main_v17) : FVec Ideal S640000 .f32) = Cert.ReferenceIdeal.Read.val_main_v25 (F := Ideal) := by
  dsimp only [W3]
  after_results
  try rfl

set_option maxHeartbeats 8000000 in
theorem zero_cnt (c : Dev nD) : (W3 m ρ c (Proc.devRef .tc main_v18) : FVec Ideal S40000 .f32) = Cert.ReferenceIdeal.Read.val_main_v26 (F := Ideal) := by
  dsimp only [W3]
  after_results
  try rfl

set_option maxHeartbeats 8000000 in
theorem one_const (c : Dev nD) : (W3 m ρ c (Proc.devRef .tc main_cst_3) : FVec Ideal S_ .f32) = Cert.ReferenceIdeal.Read.val_main_cst_3 (F := Ideal) := by
  dsimp only [W3]
  after_results
  try rfl

/-! ## The stretch, one buffer at a time -/

set_option maxHeartbeats 8000000 in
/-- The gathered rows: the message array read at the source indices. -/
theorem gathered (c : Dev nD) : (W3 m ρ c (Proc.devRef .tc main_v13) : FVec Ideal S640000x128 .f32)
    = Host.gather gather_S40000x128_S640000x1_S640000x128_1_0_n_n_0_1_1128
        (W2 m ρ c (Proc.devRef .tc main_v2) : FVec Ideal S40000x128 .f32) (W3 m ρ c (Proc.devRef .tc main_v12) : IVec S640000x1 32) := by
  dsimp only [W3]
  after_results
  try rfl

set_option maxHeartbeats 8000000 in
/-- The summed rows: the gathered rows scatter-added by the destination indices into the zero table. -/
theorem summed (c : Dev nD) : (W3 m ρ c (Proc.devRef .tc main_v16) : FVec Ideal S40000x128 .f32)
    = Host.scatterAdd (F := Ideal) (φ := .f32) scatter_S40000x128_S640000x1_S640000x128_1_0_0_1
        (W3 m ρ c (Proc.devRef .tc main_v14) : FVec Ideal S40000x128 .f32) (W3 m ρ c (Proc.devRef .tc main_v15) : IVec S640000x1 32)
        (W3 m ρ c (Proc.devRef .tc main_v13) : FVec Ideal S640000x128 .f32) := by
  dsimp only [W3]
  after_results
  try rfl

set_option maxHeartbeats 8000000 in
/-- The counts: a vector of ones scatter-added by the destination indices into a zero vector. -/
theorem counted (c : Dev nD) : (W3 m ρ c (Proc.devRef .tc main_v20) : FVec Ideal S40000 .f32)
    = Host.scatterAdd (F := Ideal) (φ := .f32) scatter_S40000_S640000x1_S640000_n_0_0_1
        (W3 m ρ c (Proc.devRef .tc main_v18) : FVec Ideal S40000 .f32) (W3 m ρ c (Proc.devRef .tc main_v19) : IVec S640000x1 32)
        (W3 m ρ c (Proc.devRef .tc main_v17) : FVec Ideal S640000 .f32) := by
  dsimp only [W3]
  after_results
  try rfl

set_option maxHeartbeats 8000000 in
/-- The clamped counts: the larger of one and the count. -/
theorem clamped (c : Dev nD) : (W4 m ρ c (Proc.devRef .tc main_v21) : FVec Ideal S40000 .f32)
    = (maximumf (F := Ideal) (φ := .f32) (broadcastInDim S40000 ![] bcast_S_S40000 (W3 m ρ c (Proc.devRef .tc main_cst_3) : FVec Ideal S_ .f32))
        (W3 m ρ c (Proc.devRef .tc main_v20) : FVec Ideal S40000 .f32) : FVec Ideal S40000 .f32) := by
  dsimp only [W4]
  generalize W3 m ρ c = X
  after_results
  try rfl

set_option maxHeartbeats 8000000 in
/-- The clamp does not touch the summed rows. -/
theorem summed_kept (c : Dev nD) : (W4 m ρ c (Proc.devRef .tc main_v16) : FVec Ideal S40000x128 .f32)
    = (W3 m ρ c (Proc.devRef .tc main_v16) : FVec Ideal S40000x128 .f32) := by
  dsimp only [W4]
  generalize W3 m ρ c = X
  after_results
  try rfl

set_option maxHeartbeats 8000000 in
/-- The aggregate: each summed row over its clamped count. -/
theorem averaged (c : Dev nD) : (W5 m ρ c (Proc.devRef .tc main_v24) : FVec Ideal S40000x128 .f32)
    = Host.divf (F := Ideal) (φ := .f32) (W4 m ρ c (Proc.devRef .tc main_v16) : FVec Ideal S40000x128 .f32)
        (broadcastInDim S40000x128 ![0, 1] bcast_S40000x1_S40000x128_0_1
          (broadcastInDim S40000x1 ![0] bcast_S40000_S40000x1_0 (W4 m ρ c (Proc.devRef .tc main_v21) : FVec Ideal S40000 .f32))) := by
  dsimp only [W5]
  generalize W4 m ρ c = X
  after_results
  try rfl

/-! ## Together -/

set_option maxHeartbeats 8000000 in
/-- The aggregate: the scatter-mean of the message array gathered at the edges' sources. -/
theorem V5_v24 (c : Dev nD) : V5 m ρ c main_v24 = (AggOf (Host.gather Cert.ReferenceIdeal.gather_S40000x128_S640000x1_S640000x128_1_0_n_n_0_1_1128 (MsgOf (m ((c : Thread nD τ).loc main_arg0)) (transpose S128x128 [1, 0] (m ((c : Thread nD τ).loc main_arg2)) transposes_S128x128_S128x128_1_0) (m ((c : Thread nD τ).loc main_arg3)) (transpose S128x128 [1, 0] (m ((c : Thread nD τ).loc main_arg4)) transposes_S128x128_S128x128_1_0) (m ((c : Thread nD τ).loc main_arg5)))
        (Cert.ReferenceIdeal.Read.val_main_v9 (F := Ideal) (m ((c : Thread nD τ).loc main_arg1)))) (m ((c : Thread nD τ).loc main_arg1))) := by
  show (W5 m ρ c (Proc.devRef .tc main_v24) : FVec Ideal S40000x128 .f32) = _
  rw [averaged, summed_kept, clamped, summed, counted, gathered, src_idx, dst_idx, dst_idx', zero_tab, ones, zero_cnt,
    one_const, KHost.W2_v2]
  unfold AggOf
  refine congrArg₂ (Host.divf (F := Ideal) (φ := .f32))
    (scatterAdd_congr _ _ _ _ _ _ _ _ rfl rfl rfl (gather_congr _ _ _ _ _ rfl rfl)) ?_
  rfl

end Cert.MP.KAgg

end
-- ==== Proof.KRun.lean ====
/-
  The kernel program's run with its result named.

  The program is two regions among stretches of host operations.  The contents of every buffer at each boundary
  are a fold from the launch memory: a stretch applies its operations, a region replaces its arrays by what its
  write-backs leave.  The run ends with every unscoped buffer at the last boundary's contents, so the result
  buffer holds the last boundary's contents there, and each argument holds what it was launched with.
-/
import proofs.«160871_j88751204204556_1_alg».proof.Proof.Gen.KernelIdeal.Frame

set_option maxRecDepth 16384

noncomputable section

namespace Cert.MP.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and every argument as launched. -/
theorem run_value : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.MP.KRun

end
-- ==== Proof.Result.lean ====
/-
  The layer's result as one function of its twelve argument arrays.

  Messages per node from the features and the (transposed) message weights; those gathered at the edges' sources
  and scatter-averaged into the destinations; then the update stage of the features and that aggregate with the
  two halves of the (transposed) first update weight, the second update weight, and the normalisation's scale and
  shift.  Both programs end at this function of their arguments.
-/
import proofs.«160871_j88751204204556_1_alg».proof.Proof.Gen.KernelIdeal
import proofs.«160871_j88751204204556_1_alg».proof.Proof.Agg
import proofs.«160871_j88751204204556_1_alg».proof.Proof.Arrays

set_option maxRecDepth 16384

noncomputable section

namespace Cert.MP

open Idealize.ShloMosaic Cert.KernelIdeal Cert.KernelIdeal.Gen

/-- The first half (rows 0 … 127) of the transposed first update weight. -/
abbrev halfX (x6 : FVec Ideal S128x256 .f32) : FVec Ideal S128x128 .f32 :=
  extractStridedSlice S128x128 ![0, 0] (transpose S256x128 [1, 0] x6 transposes_S128x256_S256x128_1_0) slices_S256x128_S128x128_0_0

/-- The second half (rows 128 … 255) of the transposed first update weight. -/
abbrev halfA (x6 : FVec Ideal S128x256 .f32) : FVec Ideal S128x128 .f32 :=
  extractStridedSlice S128x128 ![128, 0] (transpose S256x128 [1, 0] x6 transposes_S128x256_S256x128_1_0) slices_S256x128_S128x128_128_0

/-- The per-node messages gathered at the edges' sources and scatter-averaged into the destinations. -/
def aggFn (x0 : FVec Ideal S40000x128 .f32) (x1 : IVec S2x640000 32) (x2 : FVec Ideal S128x128 .f32)
    (x3 : FVec Ideal S128 .f32) (x4 : FVec Ideal S128x128 .f32) (x5 : FVec Ideal S128 .f32) : FVec Ideal S40000x128 .f32 :=
  AggOf (Host.gather Cert.ReferenceIdeal.gather_S40000x128_S640000x1_S640000x128_1_0_n_n_0_1_1128
      (MsgOf x0 (transpose S128x128 [1, 0] x2 transposes_S128x128_S128x128_1_0) x3 (transpose S128x128 [1, 0] x4 transposes_S128x128_S128x128_1_0) x5) (Cert.ReferenceIdeal.Read.val_main_v9 (F := Ideal) x1)) x1

/-- The layer's result. -/
def resultFn (x0 : FVec Ideal S40000x128 .f32) (x1 : IVec S2x640000 32) (x2 : FVec Ideal S128x128 .f32)
    (x3 : FVec Ideal S128 .f32) (x4 : FVec Ideal S128x128 .f32) (x5 : FVec Ideal S128 .f32)
    (x6 : FVec Ideal S128x256 .f32) (x7 : FVec Ideal S128 .f32) (x8 : FVec Ideal S128x128 .f32)
    (x9 x10 x11 : FVec Ideal S128 .f32) : FVec Ideal S40000x128 .f32 :=
  OutOf x0 (aggFn x0 x1 x2 x3 x4 x5) (halfX x6) (halfA x6) x7 (transpose S128x128 [1, 0] x8 transposes_S128x128_S128x128_1_0) x9 x10 x11

end Cert.MP

end
-- ==== Proof.KOut.lean ====
/-
  The kernel program computes the layer's result.

  The result buffer ends at the last boundary's contents; there it is one of the update region's arrays, which the
  region leaves at the update stage of what it found; and what it found — the features, the aggregate, the two
  halves of the transposed first weight, the transposed second weight and the remaining parameters — are the host
  stretches' terms over the launch memory.
-/
import proofs.«160871_j88751204204556_1_alg».proof.Proof.Gen.KernelIdeal.Frame
import proofs.«160871_j88751204204556_1_alg».proof.Proof.KHost
import proofs.«160871_j88751204204556_1_alg».proof.Proof.KAgg
import proofs.«160871_j88751204204556_1_alg».proof.Proof.KRun
import proofs.«160871_j88751204204556_1_alg».proof.Proof.Result

set_option maxRecDepth 16384

noncomputable section

namespace Cert.MP.KOut

open Idealize.ShloMosaic Idealize.ShloMosaic.TcCoe Idealize.SL.Sem
open Cert.KernelIdeal Cert.KernelIdeal.Gen Cert.MP

variable (m : (ℓ : Loc nD τ sig) → Buf (Elt Ideal) ℓ) (ρ : Dev nD → PrngReg)

set_option maxHeartbeats 4000000 in
/-- The result buffer at the last boundary: the layer's result of the launch memory's arguments. -/
theorem W6_v29 (c : Dev nD) :
    W6 m ρ c (Proc.devRef .tc main_v29) = resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold resultFn aggFn
  refine (W6_arr m ρ c 9).trans ((Arr1.final1 (V5 m ρ) c).trans ?_)
  rw [KHost.V5_arg0, KAgg.V5_v24, KHost.V5_v26, KHost.V5_v27, KHost.V5_arg7, KHost.V5_v28, KHost.V5_arg9,
    KHost.V5_arg10, KHost.V5_arg11]

/-- Every weakly fair execution of the kernel program terminates, nothing faulting, with the layer's result of its
    arguments in the result buffer and every argument as launched. -/
theorem run : θ_run defs (onTc (τ := τ) (main (F := Ideal))) ⟨m, fun _ => 0, ρ⟩ (fun r => ∀ c : Dev nD,
      r.2.mem ((c.tc : Thread nD τ).loc main_v29) = resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_v29 m ρ c), (h c).2⟩) (KRun.run_value m ρ)

end Cert.MP.KOut

end
-- ==== Proof.LibGatherRows.lean ====
/-
  A row gather read at one entry.

  `x[idx]` along the first axis of an [N, C] table, by E indices held as an [E, 1] array, produces an [E, C]
  array whose entry (e, k) is the table's entry (r, k): the column is the result's column, and the row r is the
  start index at e, read signed and clamped into the table — a function of e and the indices alone, not of k.
  So a function applied to every row of the table commutes with the gather, whatever the indices hold.
-/
import Idealize.ShloMosaic.PureOps.Ideal.Laws
import Idealize.ShloMosaic.Lib.ValueIdx

noncomputable section

namespace Cert.RowGather

open Idealize.ShloMosaic Idealize.ShloMosaic.ValueIdx

/-- The dimension numbers of `x[idx]` along the first axis of an [N, C] table by E indices held as an [E, 1] array:
    the second axis is the offset axis, the first is collapsed and is the one the start index names. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

variable {N E C w : Nat}
  (wf : GatherDims.WF ⟨2, ![N, C]⟩ ⟨2, ![E, 1]⟩ ⟨2, ![E, C]⟩ [1] [0] [] [0] [] 1 ![1, C])

/-- Where result entry (e, k) reads its start index does not depend on k. -/
theorem siIdx_row (e : Fin E) (k k' : Fin C) (c : Fin (rowDims N E C wf).startIndexMap.length) :
    (rowDims N E C wf).siIdx (ix2 e k) c = (rowDims N E C wf).siIdx (ix2 e k') c := by
  funext b
  match b with
  | ⟨0, _⟩ => rfl
  | ⟨1, _⟩ => rfl

theorem start_row (idx : IVec ⟨2, ![E, 1]⟩ w) (e : Fin E) (k k' : Fin C) (a : Fin 2) :
    (rowDims N E C wf).start (ix2 e k) idx a = (rowDims N E C wf).start (ix2 e k') idx a := by
  unfold GatherDims.start
  simp only [siIdx_row wf e k k']

/-- The table row that result row `e` reads: the start index at e, read signed and clamped into the table. -/
def srcRow (idx : IVec ⟨2, ![E, 1]⟩ w) (e : Fin E) (hC : 0 < C) : Fin N :=
  (rowDims N E C wf).operandIdx (ix2 e (⟨0, hC⟩ : Fin C)) idx 0

/-- THE ROW GATHER READ AT (e, k): the table at (the row result row e reads, k). -/
theorem gather_row_apply {α : Type} (hC : 0 < C) (x : (⟨2, ![N, C]⟩ : Shape).Idx → α) (idx : IVec ⟨2, ![E, 1]⟩ w)
    (e : Fin E) (k : Fin C) :
    Host.gather (rowDims N E C wf) x idx (ix2 e k) = x (ix2 (srcRow wf idx e hC) k) := by
  unfold Host.gather
  refine congrArg x (funext fun a => Fin.ext ?_)
  match a with
  | ⟨0, _⟩ =>
    show (rowDims N E C wf).start (ix2 e k) idx 0 + (rowDims N E C wf).batchCoord (ix2 e k) 0 + (rowDims N E C wf).offCoord (ix2 e k) 0
      = (rowDims N E C wf).start (ix2 e ⟨0, hC⟩) idx 0 + (rowDims N E C wf).batchCoord (ix2 e ⟨0, hC⟩) 0 + (rowDims N E C wf).offCoord (ix2 e ⟨0, hC⟩) 0
    rw [start_row wf idx e k ⟨0, hC⟩ 0,
      GatherDims.batchCoord_eq_zero _ _ _ List.not_mem_nil, GatherDims.batchCoord_eq_zero _ _ _ List.not_mem_nil,
      GatherDims.offCoord_eq_zero _ _ _ (fun h => ((GatherDims.mem_sKept _ _).mp h).1 (List.mem_singleton.mpr rfl)),
      GatherDims.offCoord_eq_zero _ _ _ (fun h => ((GatherDims.mem_sKept _ _).mp h).1 (List.mem_singleton.mpr rfl))]
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    have hs : (rowDims N E C wf).start (ix2 e k) idx 1 = 0 := by
      unfold GatherDims.start
      rw [dif_neg (show (1 : Fin 2) ∉ ([0] : List (Fin 2)) by decide)]
    have ho : (rowDims N E C wf).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [hs, ho]; omega

end Cert.RowGather

end
-- ==== Proof.RefMsg.lean ====
/-
  The reference's per-edge messages are the per-node messages read at the source.

  The reference gathers each edge's source row and applies the message perceptron to it; entry (e, c) of the
  result depends on the gathered row e only, and the gathered row e is the table's row r(e), the same r(e) a gather
  of any other table by the same indices reads.  So the result is the gather, by the same indices, of the message
  perceptron applied to every row of the table.
-/
import proofs.«160871_j88751204204556_1_alg».proof.Proof.Gen.ReferenceIdeal.Read
import proofs.«160871_j88751204204556_1_alg».proof.Proof.Arrays
import proofs.«160871_j88751204204556_1_alg».proof.Proof.LibGatherRows

set_option maxRecDepth 16384

noncomputable section

namespace Cert.MP.Ref

open Idealize.ShloMosaic Idealize.ShloMosaic.ValueIdx Cert.ReferenceIdeal Cert.ReferenceIdeal.Read Cert.MP

theorem wf0 : GatherDims.WF ⟨2, ![40000, 128]⟩ ⟨2, ![640000, 1]⟩ ⟨2, ![640000, 128]⟩ [1] [0] [] [0] [] 1 ![1, 128] := by
  decide

/-- The printed row gather reads, at (e, k), the table at (the row edge e reads, k). -/
theorem gather_apply {α : Type} (M : S40000x128.Idx → α) (idx : IVec S640000x1 32) (e : Fin 640000) (k : Fin 128) :
    Host.gather gather_S40000x128_S640000x1_S640000x128_1_0_n_n_0_1_1128 M idx (ix2 e k)
      = M (ix2 (RowGather.srcRow wf0 idx e (by decide : 0 < 128)) k) := by
  show Host.gather (RowGather.rowDims 40000 640000 128 wf0) M idx (ix2 e k) = _
  exact RowGather.gather_row_apply wf0 _ M idx e k

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

set_option maxHeartbeats 4000000 in
/-- The per-edge messages: the gather, by the source indices, of the message stage of the node features. -/
theorem msg_eq :
    val_main_v21 (F := Ideal) x0 x1 x2 x3 x4 x5
      = Host.gather gather_S40000x128_S640000x1_S640000x128_1_0_n_n_0_1_1128
          (MsgOf x0 (val_main_v11 (F := Ideal) x2) x3 (val_main_v17 (F := Ideal) x4) x5) (val_main_v9 (F := Ideal) x1) := by
  funext i
  obtain ⟨e, c, rfl⟩ : ∃ (e : Fin 640000) (c : Fin 128), i = ix2 e c := ⟨i 0, i 1, eq_ix2 i⟩
  refine Eq.trans ?_ (gather_apply (MsgOf x0 (val_main_v11 (F := Ideal) x2) x3 (val_main_v17 (F := Ideal) x4) x5) (val_main_v9 (F := Ideal) x1) e c).symm
  refine Eq.trans ?_ (MsgOf_row x0 _ x3 _ x5 _ c _ rfl)
  rw [val_main_v21_apply, val_main_v18_apply, val_main_v20_apply, val_main_v19_apply]
  unfold msgRow dense relu
  refine congrArg₂ (· + ·) (Finset.sum_congr rfl fun k _ => congrArg₂ (· * ·) ?_ ?_) ?_
  · have hl : lidx_main_v18 (ix2 e c) k = ix2 e k :=
      funext fun a => Fin.ext (by match a with | ⟨0, _⟩ => rfl | ⟨1, _⟩ => rfl)
    rw [hl, val_main_v16_apply, val_main_v15_apply, val_main_v12_apply, val_main_v14_apply, val_main_v13_apply,
      val_main_call0_v0_apply, val_main_call0_cst_apply]
    refine congrArg₂ max (congrArg₂ (· + ·) (Finset.sum_congr rfl fun j _ => congrArg₂ (· * ·) ?_ ?_) ?_) rfl
    · have hj : lidx_main_v12 (ix2 e k) j = ix2 e j :=
        funext fun a => Fin.ext (by match a with | ⟨0, _⟩ => rfl | ⟨1, _⟩ => rfl)
      rw [hj]
      unfold val_main_v10
      exact gather_apply x0 _ e j
    · exact congrArg _ (funext fun a => Fin.ext (by match a with | ⟨0, _⟩ => rfl | ⟨1, _⟩ => rfl))
    · exact congrArg x3 (funext fun a => Fin.ext (by match a with | ⟨0, _⟩ => rfl))
  · exact congrArg _ (funext fun a => Fin.ext (by match a with | ⟨0, _⟩ => rfl | ⟨1, _⟩ => rfl))
  · exact congrArg x5 (funext fun a => Fin.ext (by match a with | ⟨0, _⟩ => rfl))

end Cert.MP.Ref

end
-- ==== Proof.RefOut.lean ====
/-
  The reference's update stage, read entry by entry.

  Row n of the concatenation [x, agg] against row k of the update's first weight is a sum of 256 products: the
  first 128 pair x's row with the weight's first half, the last 128 pair agg's row with its second half.  From
  there the reference does what the kernel does, except that it divides by the square root where the kernel
  multiplies by the reciprocal square root, and that its row sums start from an explicit zero.
-/
import proofs.«160871_j88751204204556_1_alg».proof.Proof.Gen.ReferenceIdeal.Read
import proofs.«160871_j88751204204556_1_alg».proof.Proof.Arrays

set_option maxRecDepth 16384

noncomputable section

namespace Cert.MP.RefOut

open Idealize.ShloMosaic Idealize.ShloMosaic.ValueIdx Cert.ReferenceIdeal Cert.ReferenceIdeal.Gen Cert.ReferenceIdeal.Read Cert.MP

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x256, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128, .f32⟩ : BufTy).Contents (Elt Ideal)) (x11 : (⟨S128, .f32⟩ : BufTy).Contents (Elt Ideal))
  (w1x w1a : (⟨2, ![128, 128]⟩ : Shape).Idx → EReal)
  (hx : ∀ (j k : Fin 128), w1x (ix2 j k) = val_main_v34 (F := Ideal) x6 (ix2 (⟨j.val, by have := j.isLt; omega⟩ : Fin 256) k))
  (ha : ∀ (j k : Fin 128), w1a (ix2 j k) = val_main_v34 (F := Ideal) x6 (ix2 (⟨128 + j.val, by have := j.isLt; omega⟩ : Fin 256) k))

/-- Row n of the reference's residual sum. -/
abbrev H (n : Fin 40000) : Fin 128 → EReal :=
  updOf x0 (val_main_v32 (F := Ideal) x0 x1 x2 x3 x4 x5) w1x w1a x7 (val_main_v40 (F := Ideal) x8) x9 n

include hx ha in
set_option maxHeartbeats 4000000 in
/-- The residual sum at (n, c). -/
theorem h45 (n : Fin 40000) (c : Fin 128) :
    val_main_v45 (F := Ideal) x0 x1 x2 x3 x4 x5 x6 x7 x8 x9 (ix2 n c) = H x0 x1 x2 x3 x4 x5 x7 x8 x9 w1x w1a n c := by
  rw [val_main_v45_apply, val_main_v44_apply, val_main_v41_apply, val_main_v43_apply, val_main_v42_apply]
  unfold H updOf updRow dense relu
  refine congrArg₂ (· + ·) (congrArg₂ (· + ·) (Finset.sum_congr rfl fun k _ => congrArg₂ (· * ·) ?_ ?_) ?_) rfl
  · have hl : lidx_main_v41 (ix2 n c) k = ix2 n k :=
      funext fun a => Fin.ext (by match a with | ⟨0, _⟩ => rfl | ⟨1, _⟩ => rfl)
    rw [hl, val_main_v39_apply, val_main_v38_apply, val_main_v35_apply, val_main_v37_apply, val_main_v36_apply,
      val_main_call2_v0_apply, val_main_call2_cst_apply]
    refine congrArg₂ max (congrArg₂ (· + ·) ?_ ?_) rfl
    · rw [sum_256_split]
      refine congrArg₂ (· + ·) (Finset.sum_congr rfl fun j _ => congrArg₂ (· * ·) ?_ ?_)
        (Finset.sum_congr rfl fun j _ => congrArg₂ (· * ·) ?_ ?_)
      · have hi : lidx_main_v35 (ix2 n k) ⟨j.val, by have := j.isLt; omega⟩
            = (ix2 n (⟨j.val, by have := j.isLt; omega⟩ : Fin 256) : S40000x256.Idx) :=
          funext fun a => Fin.ext (by match a with | ⟨0, _⟩ => rfl | ⟨1, _⟩ => rfl)
        rw [hi]
        unfold val_main_v33
        exact concatenate_pair_apply_left 1 x0 _ concatenates_S40000x128_S40000x128_S40000x256_d1
          (ix2 n (⟨j.val, by have := j.isLt; omega⟩ : Fin 256) : S40000x256.Idx) rfl (ix2 n j)
          (fun b => by match b with | ⟨0, _⟩ => rfl | ⟨1, _⟩ => rfl)
      · refine Eq.trans (congrArg _ (funext fun a => Fin.ext (by match a with | ⟨0, _⟩ => rfl | ⟨1, _⟩ => rfl))) (hx j k).symm
      · have hi : lidx_main_v35 (ix2 n k) ⟨128 + j.val, by have := j.isLt; omega⟩
            = (ix2 n (⟨128 + j.val, by have := j.isLt; omega⟩ : Fin 256) : S40000x256.Idx) :=
          funext fun a => Fin.ext (by match a with | ⟨0, _⟩ => rfl | ⟨1, _⟩ => rfl)
        rw [hi]
        unfold val_main_v33
        exact concatenate_pair_apply_right 1 x0 _ concatenates_S40000x128_S40000x128_S40000x256_d1
          (ix2 n (⟨128 + j.val, by have := j.isLt; omega⟩ : Fin 256) : S40000x256.Idx) rfl rfl (ix2 n j)
          (fun b hb => by
            match b with
            | ⟨0, _⟩ => rfl
            | ⟨1, _⟩ => exact absurd rfl hb)
          (by show j.val + 128 = 128 + j.val; omega)
      · refine Eq.trans (congrArg _ (funext fun a => Fin.ext (by match a with | ⟨0, _⟩ => rfl | ⟨1, _⟩ => rfl))) (ha j k).symm
    · exact congrArg x7 (funext fun a => Fin.ext (by match a with | ⟨0, _⟩ => rfl))
  · exact congrArg _ (funext fun a => Fin.ext (by match a with | ⟨0, _⟩ => rfl | ⟨1, _⟩ => rfl))
  · exact congrArg x9 (funext fun a => Fin.ext (by match a with | ⟨0, _⟩ => rfl))

include hx ha in
set_option maxHeartbeats 4000000 in
/-- The reference's row mean, kept as a one-wide column: at (n, 0), the mean of row n of the residual sum. -/
theorem mean49 (n : Fin 40000) (u : Fin 1) :
    val_main_v49 (F := Ideal) x0 x1 x2 x3 x4 x5 x6 x7 x8 x9 (ix2 n u) = mean (H x0 x1 x2 x3 x4 x5 x7 x8 x9 w1x w1a n) := by
  rw [val_main_v49_apply, val_main_v47_apply, val_main_v46_apply, val_main_v48_apply, val_main_cst_5_apply,
    val_main_cst_4_apply]
  unfold mean
  show Ideal.div (Ideal.ofBits .f32 0x00000000#32 + _) (Ideal.ofBits .f32 0x43000000#32) = _
  rw [Ideal.ofBits_zero_f32, zero_add]
  refine congrArg₂ Ideal.div (Finset.sum_congr rfl fun k _ => ?_) rfl
  have hi : idx_main_v46 (idx_main_v47 (ix2 n u)) k = ix2 n k :=
    funext fun a => Fin.ext (by match a with | ⟨0, _⟩ => rfl | ⟨1, _⟩ => rfl)
  rw [hi]
  exact h45 x0 x1 x2 x3 x4 x5 x6 x7 x8 x9 w1x w1a hx ha n k

include hx ha in
set_option maxHeartbeats 4000000 in
/-- The reference's centred entry at (n, c). -/
theorem centred (n : Fin 40000) (c : Fin 128) (i : S40000x1.Idx) (hi : i = ix2 n (0 : Fin 1)) :
    val_main_v45 (F := Ideal) x0 x1 x2 x3 x4 x5 x6 x7 x8 x9 (ix2 n c) - val_main_v49 (F := Ideal) x0 x1 x2 x3 x4 x5 x6 x7 x8 x9 i
      = H x0 x1 x2 x3 x4 x5 x7 x8 x9 w1x w1a n c - mean (H x0 x1 x2 x3 x4 x5 x7 x8 x9 w1x w1a n) := by
  subst hi
  rw [h45 x0 x1 x2 x3 x4 x5 x6 x7 x8 x9 w1x w1a hx ha n c, mean49 x0 x1 x2 x3 x4 x5 x6 x7 x8 x9 w1x w1a hx ha n 0]

include hx ha in
set_option maxHeartbeats 4000000 in
/-- The reference's mean squared deviation of row n, kept as a one-wide column. -/
theorem var56 (n : Fin 40000) (u : Fin 1) :
    val_main_v56 (F := Ideal) x0 x1 x2 x3 x4 x5 x6 x7 x8 x9 (ix2 n u)
      = Ideal.div (∑ c : Fin 128, (H x0 x1 x2 x3 x4 x5 x7 x8 x9 w1x w1a n c - mean (H x0 x1 x2 x3 x4 x5 x7 x8 x9 w1x w1a n)) * (H x0 x1 x2 x3 x4 x5 x7 x8 x9 w1x w1a n c - mean (H x0 x1 x2 x3 x4 x5 x7 x8 x9 w1x w1a n)))
          (Ideal.ofBits .f32 0x43000000#32) := by
  rw [val_main_v56_apply, val_main_v54_apply, val_main_v53_apply, val_main_v55_apply, val_main_cst_7_apply,
    val_main_cst_6_apply]
  show Ideal.div (Ideal.ofBits .f32 0x00000000#32 + _) (Ideal.ofBits .f32 0x43000000#32) = _
  rw [Ideal.ofBits_zero_f32, zero_add]
  refine congrArg₂ Ideal.div (Finset.sum_congr rfl fun k _ => ?_) rfl
  have hi : idx_main_v53 (idx_main_v54 (ix2 n u)) k = ix2 n k :=
    funext fun a => Fin.ext (by match a with | ⟨0, _⟩ => rfl | ⟨1, _⟩ => rfl)
  rw [hi, val_main_v52_apply, val_main_v51_apply, val_main_v50_apply]
  have e := centred x0 x1 x2 x3 x4 x5 x6 x7 x8 x9 w1x w1a hx ha n k (idx_main_v50 (ix2 n k))
    (funext fun a => Fin.ext (by match a with | ⟨0, _⟩ => rfl | ⟨1, _⟩ => rfl))
  exact congrArg₂ (· * ·) e e

include hx ha in
set_option maxHeartbeats 4000000 in
/-- The reference's result at (n, c): row n of the residual sum, normalised by dividing by the square root, scaled by
    gamma and shifted by beta. -/
theorem out69 (n : Fin 40000) (c : Fin 128) :
    val_main_v69 (F := Ideal) x0 x1 x2 x3 x4 x5 x6 x7 x8 x9 x10 x11 (ix2 n c)
      = normDiv (H x0 x1 x2 x3 x4 x5 x7 x8 x9 w1x w1a n) (fun q => x10 (ix1 q)) (fun q => x11 (ix1 q)) c := by
  rw [val_main_v69_apply, val_main_v66_apply, val_main_v63_apply, val_main_v62_apply, val_main_v61_apply,
    val_main_v60_apply, val_main_v59_apply, val_main_cst_8_apply, val_main_v58_apply, val_main_v57_apply,
    val_main_v65_apply, val_main_v64_apply, val_main_v68_apply, val_main_v67_apply]
  unfold normDiv scaleArg
  have hi : idx_main_v62 (ix2 n c) = ix2 n (0 : Fin 1) :=
    funext fun a => Fin.ext (by match a with | ⟨0, _⟩ => rfl | ⟨1, _⟩ => rfl)
  rw [hi, var56 x0 x1 x2 x3 x4 x5 x6 x7 x8 x9 w1x w1a hx ha n 0]
  have e := centred x0 x1 x2 x3 x4 x5 x6 x7 x8 x9 w1x w1a hx ha n c (idx_main_v57 (ix2 n c))
    (funext fun a => Fin.ext (by match a with | ⟨0, _⟩ => rfl | ⟨1, _⟩ => rfl))
  refine congrArg₂ (· + ·) (congrArg₂ (· * ·) (congrArg₂ Ideal.div e rfl) ?_) ?_
  · exact congrArg x10 (funext fun a => Fin.ext (by match a with | ⟨0, _⟩ => rfl))
  · exact congrArg x11 (funext fun a => Fin.ext (by match a with | ⟨0, _⟩ => rfl))

include hx ha in
/-- THE REFERENCE'S RESULT: the update stage of the features and the reference's aggregate, for any two arrays that
    read as the two halves of the transposed first weight. -/
theorem out_eq :
    val_main_v69 (F := Ideal) x0 x1 x2 x3 x4 x5 x6 x7 x8 x9 x10 x11
      = OutOf x0 (val_main_v32 (F := Ideal) x0 x1 x2 x3 x4 x5) w1x w1a x7 (val_main_v40 (F := Ideal) x8) x9 x10 x11 := by
  funext i
  obtain ⟨n, c, rfl⟩ : ∃ (n : Fin 40000) (c : Fin 128), i = ix2 n c := ⟨i 0, i 1, eq_ix2 i⟩
  rw [out69 x0 x1 x2 x3 x4 x5 x6 x7 x8 x9 x10 x11 w1x w1a hx ha n c, ← normMul_eq_normDiv]
  rfl

end Cert.MP.RefOut

end
-- ==== Proof.RefEq.lean ====
/-
  The reference program computes the layer's result.

  Its last stage is the update stage of the features and its aggregate; its aggregate is the scatter-mean of its
  per-edge messages; its per-edge messages are the per-node messages gathered at the sources.  The two halves of the
  transposed first update weight, which the kernel program cuts out on the host, read as rows 0 … 127 and
  128 … 255 of the transposed weight the reference contracts against.
-/
import proofs.«160871_j88751204204556_1_alg».proof.Proof.Result
import proofs.«160871_j88751204204556_1_alg».proof.Proof.RefMsg
import proofs.«160871_j88751204204556_1_alg».proof.Proof.RefOut
import Idealize.ShloMosaic.Lib.ValueLayout

set_option maxRecDepth 16384

noncomputable section

namespace Cert.MP

open Idealize.ShloMosaic Idealize.ShloMosaic.ValueIdx

set_option maxHeartbeats 4000000 in
/-- The reference's last stage, of any twelve argument arrays, is the layer's result of them. -/
theorem ref_eq (x0 : FVec Ideal Cert.KernelIdeal.S40000x128 .f32) (x1 : IVec Cert.KernelIdeal.S2x640000 32)
    (x2 : FVec Ideal Cert.KernelIdeal.S128x128 .f32) (x3 : FVec Ideal Cert.KernelIdeal.S128 .f32)
    (x4 : FVec Ideal Cert.KernelIdeal.S128x128 .f32) (x5 : FVec Ideal Cert.KernelIdeal.S128 .f32)
    (x6 : FVec Ideal Cert.KernelIdeal.S128x256 .f32) (x7 : FVec Ideal Cert.KernelIdeal.S128 .f32)
    (x8 : FVec Ideal Cert.KernelIdeal.S128x128 .f32) (x9 x10 x11 : FVec Ideal Cert.KernelIdeal.S128 .f32) :
    Cert.ReferenceIdeal.Read.val_main_v69 (F := Ideal) x0 x1 x2 x3 x4 x5 x6 x7 x8 x9 x10 x11
      = resultFn x0 x1 x2 x3 x4 x5 x6 x7 x8 x9 x10 x11 := by
  have hx : ∀ (j k : Fin 128), halfX x6 (ix2 j k)
      = Cert.ReferenceIdeal.Read.val_main_v34 (F := Ideal) x6 (ix2 (⟨j.val, by have := j.isLt; omega⟩ : Fin 256) k) :=
    fun j k => slice2_axis0_apply 0 _ _ j k ⟨j.val, by have := j.isLt; omega⟩ (Nat.zero_add _).symm
  have ha : ∀ (j k : Fin 128), halfA x6 (ix2 j k)
      = Cert.ReferenceIdeal.Read.val_main_v34 (F := Ideal) x6 (ix2 (⟨128 + j.val, by have := j.isLt; omega⟩ : Fin 256) k) :=
    fun j k => slice2_axis0_apply 128 _ _ j k ⟨128 + j.val, by have := j.isLt; omega⟩ rfl
  have e2 : Cert.ReferenceIdeal.Read.val_main_v11 (F := Ideal) x2
      = transpose Cert.KernelIdeal.S128x128 [1, 0] x2 Cert.KernelIdeal.Gen.transposes_S128x128_S128x128_1_0 := rfl
  have e4 : Cert.ReferenceIdeal.Read.val_main_v17 (F := Ideal) x4
      = transpose Cert.KernelIdeal.S128x128 [1, 0] x4 Cert.KernelIdeal.Gen.transposes_S128x128_S128x128_1_0 := rfl
  have e8 : Cert.ReferenceIdeal.Read.val_main_v40 (F := Ideal) x8
      = transpose Cert.KernelIdeal.S128x128 [1, 0] x8 Cert.KernelIdeal.Gen.transposes_S128x128_S128x128_1_0 := rfl
  rw [RefOut.out_eq x0 x1 x2 x3 x4 x5 x6 x7 x8 x9 x10 x11 (halfX x6) (halfA x6) hx ha, ref_agg, Ref.msg_eq, e2, e4, e8]
  rfl

end Cert.MP

end
-- ==== Proof.lean ====
/-
  One message-passing layer: the kernel program against its reference.

  The kernel computes each node's message once, from the node's own feature row, and reads it at every edge's
  source; the reference reads the source's feature row at every edge and computes the message there.  A gather
  reads, for edge e, one table row r(e) fixed by the edge list alone, so the two agree whatever the edge list holds.
  Both then scatter-average the edge messages into the destinations in the same way.  For the update the reference
  contracts the 256 concatenated features [x, agg] against the whole first weight, the kernel contracts x and agg
  against its two halves and adds: a sum of 256 products split after the first 128.  Both add the node's own row
  and normalise it: the reference divides the centred row by the square root of (variance + eps), the kernel
  multiplies it by the reciprocal square root.  On the extended reals those agree at every positive argument, and
  variance + eps is positive for every row — a mean of squares is never negative, the infinities included, and eps
  is a positive real — so the two results are equal for all inputs, finite or not.

  The three frame claims are the generated frame of each kernel program and the reference's generated run; the ideal
  pass recorded no rewrite, so the preservation claim is trivial.
-/
import proofs.«160871_j88751204204556_1_alg».proof.Defs
import proofs.«160871_j88751204204556_1_alg».proof.Proof.Gen.Kernel
import proofs.«160871_j88751204204556_1_alg».proof.Proof.Gen.Kernel.Skeleton
import proofs.«160871_j88751204204556_1_alg».proof.Proof.Gen.Kernel.Launch
import proofs.«160871_j88751204204556_1_alg».proof.Proof.Gen.Kernel.Points
import proofs.«160871_j88751204204556_1_alg».proof.Proof.Gen.Kernel.Frame
import proofs.«160871_j88751204204556_1_alg».proof.Proof.Gen.KernelIdeal
import proofs.«160871_j88751204204556_1_alg».proof.Proof.Gen.KernelIdeal.Skeleton
import proofs.«160871_j88751204204556_1_alg».proof.Proof.Gen.KernelIdeal.Launch
import proofs.«160871_j88751204204556_1_alg».proof.Proof.Gen.KernelIdeal.Points
import proofs.«160871_j88751204204556_1_alg».proof.Proof.Gen.KernelIdeal.Frame
import proofs.«160871_j88751204204556_1_alg».proof.Proof.Gen.ReferenceIdeal
import proofs.«160871_j88751204204556_1_alg».proof.Proof.Gen.ReferenceIdeal.Run
import proofs.«160871_j88751204204556_1_alg».proof.Proof.Gen.ReferenceIdeal.Read
import proofs.«160871_j88751204204556_1_alg».proof.Proof.Gen.Pre_finite_inputs
import proofs.«160871_j88751204204556_1_alg».proof.Proof.KOut
import proofs.«160871_j88751204204556_1_alg».proof.Proof.RefEq
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- From memories agreeing on the twelve arguments both programs end with the layer's result of those arguments:
    the kernel by its run, the reference by its run, its last stage read as the same function. -/
theorem algebraic : Cert.algebraic_KernelIdeal_ReferenceIdeal := by
  intro m ρ m' ρ' _ hagree
  refine ⟨fun c => Cert.MP.resultFn
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), Cert.MP.KOut.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v69_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact Cert.MP.ref_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
